-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S_ : Shape := ⟨0, ![]⟩
abbrev S4096 : Shape := ⟨1, ![4096]⟩
abbrev S1x4096 : Shape := ⟨2, ![1, 4096]⟩
abbrev S16384x4096 : Shape := ⟨2, ![16384, 4096]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S4096x512, .bf16⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S16384x4096, .f32⟩
  | .local _ .vmem, ⟨0, _⟩ => ⟨S256x512, .f32⟩
  | .local _ .vmem, ⟨1, _⟩ => ⟨S256x512, .f32⟩
  | .local _ .vmem, ⟨2, _⟩ => ⟨S4096x512, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S4096x512_S4096_d1 : S4096x512.ReducesTo [1] S4096
  h_S_ : 0 < S_.numel
  bcast_S4096_S1x4096_1 : S4096.BroadcastsInDim S1x4096 (![1] : Fin 1 → Fin S1x4096.rank)
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x512_S256 : S256x512.Reduces [1] S256
  shapeCasts_S256_S256x1 : S256.ShapeCasts S256x1
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.LibRowSquares.lean ====
/-
  The squared norm of each row of a matrix, read at a row, over arbitrary sizes and over the extended reals.

  For an `[a, k]` array `x` the squared norm of row `r` is `∑ c, x (r, c) · x (r, c)`. A kernel's lane reduction of the
  entrywise square (a float add-reduction along the second axis from the zero word) and the host's sum of the entrywise
  square along the second axis from a zero initial value both read, at row `r`, as this sum.
-/
import Idealize.ShloMosaic.Lib.ValueIdx
import Idealize.ShloMosaic.PureOps.Ideal.Laws

noncomputable section

open scoped BigOperators

namespace Cert.Lib.RowSquares

open Idealize.ShloMosaic Idealize.ShloMosaic.ValueIdx

variable {a k : Nat}

/-- The squared norm of row `r`: the sum of the squares of its entries. -/
def rowSq (x : (⟨2, ![a, k]⟩ : Shape).Idx → EReal) (r : Fin a) : EReal :=
  ∑ c : Fin k, x (ix2 r c) * x (ix2 r c)

/-- Reducing a matrix along its second axis inserts the reduced coordinate second. -/
theorem lift_eq (h : Shape.Reduces ⟨2, ![a, k]⟩ [1] ⟨1, ![a]⟩) (r : Fin a) (c : Fin k) :
    h.lift (ix1 r) c = ix2 r c :=
  funext fun ax => Fin.ext (by match ax with | ⟨0, _⟩ => rfl | ⟨1, _⟩ => rfl)

/-- A lane sum of the entrywise square, at row `r`: the row's squared norm. -/
theorem laneSumSq_apply (x : FVec Ideal ⟨2, ![a, k]⟩ .f32) (h : Shape.Reduces ⟨2, ![a, k]⟩ [1] ⟨1, ![a]⟩)
    (hφ : FKind.Formats .f32) (hacc : (0x00000000#32 : BitVec FTy.f32.bits) = FKind.add.neutral .f32 hφ) (r : Fin a) :
    multiReduction .add [1] ⟨1, ![a]⟩ (mulf x x) 0x00000000#32 h hφ hacc (ix1 r) = rowSq x r :=
  (Ideal.multiReduction_add_single (mulf x x) _ h hφ hacc (ix1 r)).trans
    (Finset.sum_congr rfl fun c _ => by rw [lift_eq h r c]; rfl)

/-- The host's sum, from the zero word, of the entrywise square along the second axis, at row `r`: the row's squared
    norm (zero plus the sum). -/
theorem hostSumSq_apply (y : FVec Ideal ⟨2, ![a, k]⟩ .f32) (h' : Shape.ReducesTo ⟨2, ![a, k]⟩ [1] ⟨1, ![a]⟩)
    (h : Shape.Reduces ⟨2, ![a, k]⟩ [1] ⟨1, ![a]⟩) (h0 : 0 < (⟨0, ![]⟩ : Shape).numel) (r : Fin a) :
    Host.reduceAdd (mulf y y) (constant (F := Ideal) ⟨0, ![]⟩ .f32 0x00000000#32) h' h0 (ix1 r) = rowSq y r := by
  show Ideal.hostReduceAdd h' (mulf y y) (Ideal.ofBits .f32 0x00000000#32) (ix1 r) = _
  rw [Ideal.hostReduceAdd_single h' h, Ideal.ofBits_zero_f32, zero_add]
  exact Finset.sum_congr rfl fun c _ => by rw [lift_eq h r c]; rfl

end Cert.Lib.RowSquares

end
-- ==== Proof.Spec.lean ====
/-
  The squared Euclidean distance between every row of a matrix X and every row of a matrix W, in its expanded
  form: D(r, s) = (‖X r‖² + ‖W s‖²) − 2 · ⟨X r, W s⟩, with ‖X r‖² = ∑ c, X(r, c)² and ⟨X r, W s⟩ = ∑ c, X(r, c) · W(s, c),
  over the extended reals. The three sums and the one subtraction are kept exactly in this order: no law of the
  extended reals is needed to compare two programs that both compute the expansion in this order.
-/
import Idealize.ShloMosaic.Lib.ValueIdx
import proofs.«144962_j16655883173981_2_alg».proof.Proof.LibRowSquares

noncomputable section

open scoped BigOperators

namespace Cert.SqDist

open Idealize.ShloMosaic Idealize.ShloMosaic.ValueIdx

variable {a b k : Nat}

export Cert.Lib.RowSquares (rowSq laneSumSq_apply hostSumSq_apply)

/-- The inner product of row `r` of `x` with row `s` of `w`. -/
def rowDot (x : (⟨2, ![a, k]⟩ : Shape).Idx → EReal) (w : (⟨2, ![b, k]⟩ : Shape).Idx → EReal) (r : Fin a) (s : Fin b) : EReal :=
  ∑ c : Fin k, x (ix2 r c) * w (ix2 s c)

/-- The factor 2 of the cross term, as the single-precision word both programs write. -/
def two : EReal := Ideal.ofBits .f32 0x40000000#32

/-- The expanded squared distance at row `r` of `x` and row `s` of `w`. -/
def expanded (x : (⟨2, ![a, k]⟩ : Shape).Idx → EReal) (w : (⟨2, ![b, k]⟩ : Shape).Idx → EReal) (r : Fin a) (s : Fin b) : EReal :=
  (rowSq x r + rowSq w s) - two * rowDot x w r s

/-- The whole table of expanded squared distances. -/
def sqDist (x : (⟨2, ![a, k]⟩ : Shape).Idx → EReal) (w : (⟨2, ![b, k]⟩ : Shape).Idx → EReal) :
    (⟨2, ![a, b]⟩ : Shape).Idx → EReal :=
  fun i => expanded x w (i 0) (i 1)

theorem sqDist_apply (x : (⟨2, ![a, k]⟩ : Shape).Idx → EReal) (w : (⟨2, ![b, k]⟩ : Shape).Idx → EReal) (r : Fin a) (s : Fin b) :
    sqDist x w (ix2 r s) = expanded x w r s := rfl

end Cert.SqDist

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.Payload.lean ====
/-
  What the kernel's body stores at one entry of its output block, over the extended reals.

  The body holds a block of 256 rows of X (each of 512 entries), the whole of W' (4096 rows) and a row vector u of 4096
  entries. At row p and column q of its 256 × 4096 output block it stores
      (‖X p‖² + u q) − 2 · ⟨X p, W' q⟩:
  the lane sum of the entrywise square of the X block, repeated across the columns; the row vector repeated down the
  rows; and the matrix product of the X block with W' contracted along their last axes into a zero accumulator. The
  narrowing of the X block before the product is the identity on extended reals.
-/
import proofs.«144962_j16655883173981_2_alg».proof.Proof.Spec
import proofs.«144962_j16655883173981_2_alg».proof.Proof.LibTransposedProduct
import proofs.«144962_j16655883173981_2_alg».proof.Proof.LibRepeat
import proofs.«144962_j16655883173981_2_alg».proof.Proof.LibColumn
import proofs.«144962_j16655883173981_2_alg».proof.Proof.Gen.KernelIdeal.Skeleton

noncomputable section

open scoped BigOperators

namespace Cert.KernelIdeal.Block

open Cert.KernelIdeal Cert.KernelIdeal.Gen Idealize.ShloMosaic Idealize.ShloMosaic.ValueIdx Cert.SqDist

/-- The stored value at row `p`, column `q` of the block. -/
theorem payload_apply (x0 : Vec Ideal S256x512 .f32) (x1 : Vec Ideal S4096x512 .bf16) (x3 : Vec Ideal S1x4096 .f32)
    (p : Fin 256) (q : Fin 4096) :
    k0_pay1 (F := Ideal) x0 x1 x3 (ix2 p q) = (rowSq x0 p + x3 (ix2 (0 : Fin 1) q)) - two * rowDot x0 x1 p q := by
  unfold k0_pay1
  refine congrArg₂ (· - ·) (congrArg₂ (· + ·) ?_ ?_) (congrArg₂ (· * ·) rfl ?_)
  · refine (Cert.Lib.Repeat.colRepeat_apply _ _ p q).trans ?_
    refine (Cert.Lib.Column.shapeCast_a_a1_apply _ _ p 0).trans ?_
    exact laneSumSq_apply x0 _ _ _ p
  · refine (Cert.Lib.Repeat.rowRepeat_apply _ _ p q).trans ?_
    exact congrFun (shapeCast_self x3 _) _
  · refine (Cert.Lib.TransposedProduct.matmul_apply _ rfl none _ _ p q).trans ?_
    refine Finset.sum_congr rfl fun c _ => ?_
    exact congrArg (x0 (ix2 p c) * ·) (congrFun (shapeCast_self x1 _) _)

end Cert.KernelIdeal.Block

end
-- ==== Proof.BlockEntry.lean ====
/-
  One entry of one output block is one entry of the squared-distance table.

  If the block of X the body holds is rows 256·T … 256·T + 255 of X, the second operand it holds is W, and the row
  vector it holds is the squared norms of W's rows, then what the body stores at row p, column q of its block is the
  expanded squared distance between row 256·T + p of X and row q of W.
-/
import proofs.«144962_j16655883173981_2_alg».proof.Proof.Payload

noncomputable section

open scoped BigOperators

namespace Cert.KernelIdeal.Block

open Cert.KernelIdeal Cert.KernelIdeal.Gen Idealize.ShloMosaic Idealize.ShloMosaic.ValueIdx Cert.SqDist

/-- At explicit coordinates: row `p` of the block is row `n` of X. -/
theorem block_entry (X : S16384x512.Idx → EReal) (W : S4096x512.Idx → EReal)
    (x0 : Vec Ideal S256x512 .f32) (x1 : Vec Ideal S4096x512 .bf16) (x3 : Vec Ideal S1x4096 .f32)
    (n : Fin 16384) (p : Fin 256) (q : Fin 4096)
    (h0 : ∀ k : Fin 512, x0 (ix2 p k) = X (ix2 n k))
    (h1 : ∀ k : Fin 512, x1 (ix2 q k) = W (ix2 q k))
    (h3 : x3 (ix2 (0 : Fin 1) q) = rowSq W q) :
    k0_pay1 (F := Ideal) x0 x1 x3 (ix2 p q) = sqDist X W (ix2 n q) := by
  rw [payload_apply, sqDist_apply, h3]
  unfold expanded rowSq rowDot
  simp only [h0, h1]

/-- At a block index `j` and the array index `i` it sits at: `i` is `j` moved down by 256·T rows. -/
theorem block_entry_at (X : S16384x512.Idx → EReal) (W : S4096x512.Idx → EReal)
    (x0 : Vec Ideal S256x512 .f32) (x1 : Vec Ideal S4096x512 .bf16) (x3 : Vec Ideal S1x4096 .f32)
    (T : Nat) (j : S256x4096.Idx) (i : S16384x4096.Idx)
    (hi0 : (i 0).val = T * 256 + (j 0).val) (hi1 : (i 1).val = (j 1).val)
    (h0 : ∀ (p : Fin 256) (k : Fin 512) (n : Fin 16384), n.val = T * 256 + p.val → x0 (ix2 p k) = X (ix2 n k))
    (h1 : ∀ (o : Fin 4096) (k : Fin 512), x1 (ix2 o k) = W (ix2 o k))
    (h3 : ∀ o : Fin 4096, x3 (ix2 (0 : Fin 1) o) = rowSq W o) :
    k0_pay1 (F := Ideal) x0 x1 x3 j = sqDist X W i := by
  obtain ⟨p, q, rfl⟩ : ∃ (p : Fin 256) (q : Fin 4096), j = ix2 p q := ⟨j 0, j 1, eq_ix2 j⟩
  obtain ⟨n, o, rfl⟩ : ∃ (n : Fin 16384) (o : Fin 4096), i = ix2 n o := ⟨i 0, i 1, eq_ix2 i⟩
  obtain rfl : o = q := Fin.ext hi1
  exact block_entry X W x0 x1 x3 n p o (fun k => h0 p k n hi0) (h1 o) (h3 o)

end Cert.KernelIdeal.Block

end
-- ==== Proof.Entry.lean ====
/-
  What the kernel's region finds in its three input arrays.

  The region's first input is the argument X itself. Its second is W narrowed to the product's input format, which on
  extended reals is W. Its third is the row vector of the squared norms of W's rows: the host's sum from zero of the
  entrywise square of W along its second axis, laid out as one row.
-/
import proofs.«144962_j16655883173981_2_alg».proof.Proof.Spec
import Idealize.ShloMosaic.Lib.Pipeline.Value
import proofs.«144962_j16655883173981_2_alg».proof.Proof.Gen.KernelIdeal.Frame
import Idealize.ShloMosaic.Lib.StableHlo.Run

noncomputable section

open scoped BigOperators

namespace Cert.KernelIdeal.Block

open Cert.KernelIdeal Cert.KernelIdeal.Gen Idealize.ShloMosaic Idealize.ShloMosaic.TcCoe Idealize.SL.Sem
  Idealize.ShloMosaic.ValueIdx Cert.SqDist

section
variable {F : FTy → Type} [FloatOps F]
variable (m : (ℓ : Loc nD τ sig) → Buf (Elt F) ℓ)

/-- The second input array is W narrowed. -/
theorem entry_narrowed (c : Dev nD) :
    V m c main_v0
      = ((truncf .bf16 · bitsLt_bf16_f32) : (⟨S4096x512, .f32⟩ : BufTy).Contents (Elt F) → (⟨S4096x512, .bf16⟩ : BufTy).Contents (Elt F))
          (m ((c : Thread nD τ).loc main_arg1)) := by
  dsimp only [Gen.V, Gen.hostOps0]; after_results

/-- The third input array is the host's row sums of W's entrywise square, as one row. -/
theorem entry_norms (c : Dev nD) :
    V m c main_v3
      = (broadcastInDim S1x4096 ![1] bcast_S4096_S1x4096_1 : (⟨S4096, .f32⟩ : BufTy).Contents (Elt F) → (⟨S1x4096, .f32⟩ : BufTy).Contents (Elt F))
          (((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F))
            ((mulf : (⟨S4096x512, .f32⟩ : BufTy).Contents (Elt F) → (⟨S4096x512, .f32⟩ : BufTy).Contents (Elt F) → (⟨S4096x512, .f32⟩ : BufTy).Contents (Elt F))
              (m ((c : Thread nD τ).loc main_arg1)) (m ((c : Thread nD τ).loc main_arg1)))
            (constant S_ .f32 0x00000000#32)) := by
  dsimp only [Gen.V, Gen.hostOps0]; after_results

end

variable (m : (ℓ : Loc nD τ sig) → Buf (Elt Ideal) ℓ)

/-- Over the extended reals, entry (o, k) of the second input array is W(o, k). -/
theorem entry_narrowed_apply (c : Dev nD) (o : Fin 4096) (k : Fin 512) :
    (V m c main_v0 : S4096x512.Idx → EReal) (ix2 o k) = (m ((c : Thread nD τ).loc main_arg1) : S4096x512.Idx → EReal) (ix2 o k) :=
  congrFun (entry_narrowed m c) (ix2 o k)

/-- Over the extended reals, entry (0, o) of the third input array is the squared norm of row o of W. -/
theorem entry_norms_apply (c : Dev nD) (o : Fin 4096) :
    (V m c main_v3 : S1x4096.Idx → EReal) (ix2 (0 : Fin 1) o) = rowSq (m ((c : Thread nD τ).loc main_arg1) : S4096x512.Idx → EReal) o := by
  refine (congrFun (entry_norms m c) (ix2 (0 : Fin 1) o)).trans ?_
  refine (broadcastInDim_apply _ bcast_S4096_S1x4096_1 _ (ix2 (0 : Fin 1) o) (ix1 o) (fun a => match a with
    | ⟨0, _⟩ => by show o.val = if (4096 : Nat) = 1 then 0 else o.val; rw [if_neg (by decide)])).trans ?_
  exact hostSumSq_apply _ reducesTo_S4096x512_S4096_d1 (by decide) h_S_ o

end Cert.KernelIdeal.Block

end
-- ==== Proof.Final.lean ====
/-
  From the blocks to the whole array: after the run the kernel's result array is the squared-distance table.

  The grid has 64 points. Point t holds rows 256·t … 256·t + 255 of X, all of the narrowed W and the whole row vector of
  squared norms, and writes rows 256·t … 256·t + 255 of the result. Each block it writes is the table read through that
  block; the 64 row bands cover the array (row r lies in band r / 256).
-/
import proofs.«144962_j16655883173981_2_alg».proof.Proof.BlockEntry
import proofs.«144962_j16655883173981_2_alg».proof.Proof.Entry
import proofs.«144962_j16655883173981_2_alg».proof.Proof.Gen.KernelIdeal.Value

noncomputable section

open scoped BigOperators

namespace Cert.KernelIdeal.Block

open Cert.KernelIdeal Cert.KernelIdeal.Gen Idealize.ShloMosaic Idealize.ShloMosaic.TcCoe Idealize.SL.Sem
  Idealize.ShloMosaic.ValueIdx Cert.SqDist
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block each window holds at grid point `t`: the X window and the result window are at row band `t`, the two
    resident windows at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table the run ends at, of the launch contents of the two arguments. -/
abbrev table (c : Dev nD) : S16384x4096.Idx → EReal :=
  sqDist (m ((c : Thread nD τ).loc main_arg0) : S16384x512.Idx → EReal) (m ((c : Thread nD τ).loc main_arg1) : S4096x512.Idx → EReal)

/-- What point `t` writes back is the table read through the point's block. -/
theorem flushed_eq (c : Dev nD) (t : Fin cfg0.N) :
    (dats m 0 c).flushed 3 t = ((cfg0.win 3).blk t).view.read (Elt Ideal) (table m c) := by
  rw [Cert.KernelIdeal.Value.flushed3]
  unfold out0_3
  rw [View.canon_unit_zero zero_offsets]
  simp only [View.ld_unit_zero (S := S256x512) zero_offsets, View.ld_unit_zero (S := S4096x512) zero_offsets,
    View.ld_unit_zero (S := S1x4096) zero_offsets]
  obtain ⟨e00, e01, e10, e11, e20, e21, e30, e31⟩ := block_indices t
  funext j
  refine block_entry_at _ _ (iblk m c 0 t) (iblk m c 1 t) (iblk m c 2 t) t.val j (((cfg0.win 3).blk t).view.emb j) ?_ ?_ ?_ ?_ ?_
  · show win0_3.index t (0 : Fin 2) * 256 + 1 * (j 0).val = t.val * 256 + (j 0).val
    rw [e30]; omega
  · show win0_3.index t (1 : Fin 2) * 4096 + 1 * (j 1).val = (j 1).val
    rw [e31]; omega
  · intro p k n hn
    show V m c main_arg0 (((cfg0.win 0).blk t).view.emb (ix2 p k)) = _
    rw [V_main_arg0]
    refine congrArg _ (funext fun a => Fin.ext ?_)
    match a with
    | ⟨0, _⟩ => show win0_0.index t (0 : Fin 2) * 256 + 1 * p.val = n.val; rw [e00, hn]; omega
    | ⟨1, _⟩ => show win0_0.index t (1 : Fin 2) * 512 + 1 * k.val = k.val; rw [e01]; omega
  · intro o k
    show V m c main_v0 (((cfg0.win 1).blk t).view.emb (ix2 o k)) = _
    refine Eq.trans (congrArg _ (funext fun a => Fin.ext ?_)) (entry_narrowed_apply m c o k)
    match a with
    | ⟨0, _⟩ => show win0_1.index t (0 : Fin 2) * 4096 + 1 * o.val = o.val; rw [e10]; omega
    | ⟨1, _⟩ => show win0_1.index t (1 : Fin 2) * 512 + 1 * k.val = k.val; rw [e11]; omega
  · intro o
    show V m c main_v3 (((cfg0.win 2).blk t).view.emb (ix2 (0 : Fin 1) o)) = _
    refine Eq.trans (congrArg _ (funext fun a => Fin.ext ?_)) (entry_norms_apply m c o)
    match a with
    | ⟨0, _⟩ => show win0_2.index t (0 : Fin 2) * 1 + 1 * 0 = 0; rw [e20]
    | ⟨1, _⟩ => show win0_2.index t (1 : Fin 2) * 4096 + 1 * o.val = o.val; rw [e21]; omega

/-- An index of the result array is in point `t`'s block iff each coordinate is in the block's range on its axis. -/
theorem mem_block (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v4).slice (win0_3.rect t)).set ↔ _
  rw [View.set_slice_whole, Rect.mem_set_unit]
  exact Iff.rfl

/-- Every index of the result array lies in the block of the point of its row band. -/
theorem covered (i : S16384x4096.Idx) : ∃ t : Fin cfg0.N, (cfg0.win 3).flush t = true ∧ i ∈ ((cfg0.win 3).blk t).view.set := by
  have hN : cfg0.N = 64 := N_0
  have hi0 : (i 0).val < 16384 := (i 0).isLt
  have hi1 : (i 1).val < 4096 := (i 1).isLt
  have ht : (i 0).val / 256 < cfg0.N := by rw [hN]; omega
  refine ⟨⟨(i 0).val / 256, ht⟩, flush0_3 _, ?_⟩
  rw [mem_block]
  obtain ⟨-, -, -, -, -, -, e30, e31⟩ := block_indices ⟨(i 0).val / 256, ht⟩
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, ht⟩ (1 : Fin 2) * 4096 ≤ (i 1).val ∧ (i 1).val < win0_3.index ⟨(i 0).val / 256, ht⟩ (1 : Fin 2) * 4096 + 4096
    rw [e31]; omega

/-- So the result array ends holding the table. -/
theorem final (c : Dev nD) : (dats m 0 c).arrAt 3 cfg0.N = table m c :=
  (dats m 0 c).arrAt_eq_of_cover 3 (table m c) (fun t _ => flushed_eq m c t) covered

/-- The run, read: every weakly fair execution ends with the result array at the squared-distance table of the
    arguments, the arguments unchanged. -/
theorem run : θ_run defs (onTc (τ := τ) (main (F := Ideal))) ⟨m, fun _ => 0, ρ⟩ fun r => ∀ c : Dev nD,
      r.2.mem ((c : Thread nD τ).loc main_v4) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Block

end
-- ==== Proof.RefSpec.lean ====
/-
  The reference program's result, over the extended reals, is the table of expanded squared distances of its two
  arguments: at (n, o) it adds the host's sum of squares of row n of X (from zero) to that of row o of W, and subtracts
  twice the product of X with W contracted along their last axes — the expansion in the specification's own order.
-/
import proofs.«144962_j16655883173981_2_alg».proof.Proof.Spec
import proofs.«144962_j16655883173981_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx Cert.SqDist

/-- The reference's last stage is the squared-distance table of the arguments. -/
theorem reference_eq (x0 : (⟨S16384x512, .f32⟩ : BufTy).Contents (Elt Ideal)) (x1 : (⟨S4096x512, .f32⟩ : BufTy).Contents (Elt Ideal)) :
    val_main_v12 (F := Ideal) x0 x1 = sqDist x0 x1 := by
  funext i
  obtain ⟨n, o, rfl⟩ : ∃ (n : Fin 16384) (o : Fin 4096), i = ix2 n o := ⟨i 0, i 1, eq_ix2 i⟩
  have e1 : ∀ k : Fin 512, idx_main_v1 (idx_main_v2 (idx_main_v7 (ix2 n o))) k = ix2 n k := fun k =>
    funext fun a => Fin.ext (by match a with | ⟨0, _⟩ => rfl | ⟨1, _⟩ => rfl)
  have e4 : ∀ k : Fin 512, idx_main_v4 (idx_main_v6 (idx_main_v8 (ix2 n o))) k = ix2 o k := fun k =>
    funext fun a => Fin.ext (by match a with | ⟨0, _⟩ => rfl | ⟨1, _⟩ => rfl)
  have el : ∀ k : Fin 512, lidx_main_v5 (ix2 n o) k = ix2 n k := fun k =>
    funext fun a => Fin.ext (by match a with | ⟨0, _⟩ => rfl | ⟨1, _⟩ => rfl)
  have er : ∀ k : Fin 512, ridx_main_v5 (ix2 n o) k = ix2 o k := fun k =>
    funext fun a => Fin.ext (by match a with | ⟨0, _⟩ => rfl | ⟨1, _⟩ => rfl)
  rw [val_main_v12_apply, val_main_v9_apply, val_main_v11_apply, val_main_v7_apply, val_main_v2_apply, val_main_v1_apply,
    val_main_v8_apply, val_main_v6_apply, val_main_v4_apply, val_main_v10_apply, val_main_v5_apply]
  simp only [val_main_v0_apply, val_main_v3_apply, val_main_cst_apply, val_main_cst_0_apply, val_main_cst_1_apply, e1, e4, el, er,
    Ideal.mulf_def, Ideal.addf_def, Ideal.subf_def, Ideal.ofBits_def, Ideal.ofBits_zero_f32, zero_add]
  rfl

end Cert.ReferenceIdeal.RefValue

end
-- ==== Proof.lean ====
/-
  A table of squared Euclidean distances, computed two ways.

  For X of 16384 rows and W of 4096 rows, each of 512 entries, both programs compute the expansion
      D(n, o) = (‖X n‖² + ‖W o‖²) − 2 · ⟨X n, W o⟩
  with the three sums and the one subtraction in this order. The reference does it on whole arrays. The kernel's
  program first narrows W to the product's input format and sums the squares of W's rows into a row vector, then walks
  64 bands of 256 rows of X: in each band it sums the squares of the rows of X by a lane reduction, multiplies the band
  with the narrowed W contracted along the last axes into a zero accumulator, and writes the band of D.

  Over the extended reals a change of float format is the identity, a lane reduction and the host's sum from zero are
  the same finite sum, and the two matrix products are the same finite sum: entry by entry both programs write the same
  expression, so no law of the extended reals beyond 0 + s = s is used, and the finiteness of the inputs is not needed.

  The frames of the two kernel programs and the run of the reference are the generated ones; the kernel's result array
  as one function of the arguments is read off the generated blockwise run.
-/
import proofs.«144962_j16655883173981_2_alg».proof.Defs
import proofs.«144962_j16655883173981_2_alg».proof.Proof.Gen.Kernel
import proofs.«144962_j16655883173981_2_alg».proof.Proof.Gen.Kernel.Skeleton
import proofs.«144962_j16655883173981_2_alg».proof.Proof.Gen.Kernel.Launch
import proofs.«144962_j16655883173981_2_alg».proof.Proof.Gen.Kernel.Points
import proofs.«144962_j16655883173981_2_alg».proof.Proof.Gen.Kernel.Frame
import proofs.«144962_j16655883173981_2_alg».proof.Proof.Gen.KernelIdeal
import proofs.«144962_j16655883173981_2_alg».proof.Proof.Gen.KernelIdeal.Skeleton
import proofs.«144962_j16655883173981_2_alg».proof.Proof.Gen.KernelIdeal.Launch
import proofs.«144962_j16655883173981_2_alg».proof.Proof.Gen.KernelIdeal.Points
import proofs.«144962_j16655883173981_2_alg».proof.Proof.Gen.KernelIdeal.Frame
import proofs.«144962_j16655883173981_2_alg».proof.Proof.Gen.ReferenceIdeal
import proofs.«144962_j16655883173981_2_alg».proof.Proof.Gen.Pre_finite_inputs
import proofs.«144962_j16655883173981_2_alg».proof.Proof.Gen.KernelIdeal.Value
import proofs.«144962_j16655883173981_2_alg».proof.Proof.Gen.ReferenceIdeal.Run
import proofs.«144962_j16655883173981_2_alg».proof.Proof.Gen.ReferenceIdeal.Read
import proofs.«144962_j16655883173981_2_alg».proof.Proof.Final
import proofs.«144962_j16655883173981_2_alg».proof.Proof.RefSpec
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel program was rewritten on the way to the extended reals. -/
theorem preserves : Cert.preserves_Kernel_KernelIdeal := trivial

/-- Both programs end with the squared-distance table of their (equal) arguments. -/
theorem algebraic : Cert.algebraic_KernelIdeal_ReferenceIdeal := by
  intro m ρ m' ρ' _ hagree
  refine ⟨fun c => Cert.KernelIdeal.Block.table m c, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
